-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) (main_arg2 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  main_v13
-- ==== Kernel.lean ====
abbrev S8x2048x512 : Shape := ⟨3, ![8, 2048, 512]⟩
abbrev S1x512x512 : Shape := ⟨3, ![1, 512, 512]⟩
abbrev S1x2048x512 : Shape := ⟨3, ![1, 2048, 512]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  transposes_S2048x512_p1_0_S512x2048 : S2048x512.Transposes [1, 0] S512x2048
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S_, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x512, .f32⟩
  | .hbm, ⟨26, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048x1_S8x2048x512_0_1_2 : S8x2048x1.BroadcastsInDim S8x2048x512 (![0, 1, 2] : Fin 3 → Fin S8x2048x512.rank)
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.Finite.lean ====
/-
  Extended reals that are real numbers, and the one identity both programs rest on.

  Write `IsReal x` when the extended real `x` is a real number. Sums, differences, products and maxima of
  reals are real, and `exp` of a real is a POSITIVE real. Hence, for real scores `s j` and real shifts `m j`
  over a nonempty finite index set, the weights `e j = exp (s j - m j)` are positive reals, their sum `L` is
  a positive real, and

    L / L = 1            and            ∑ j, e j / L = 1 .

  The first is the normaliser a row of the kernel multiplies by, the second is the row sum of a softmax. Neither
  depends on what the scores are — only on their being finite — so a scale applied to the scores (by
  a rounded constant on one side, by an exact square root on the other) drops out of both.
-/
import Idealize.ShloMosaic.PureOps.Ideal
import Idealize.ShloMosaic.PureOps.Ideal.Laws

noncomputable section

namespace Cert.Finite

open Idealize.ShloMosaic

/-- The extended real `x` is a real number (neither infinity). -/
def IsReal (x : EReal) : Prop := ∃ r : ℝ, x = (r : EReal)

/-- The extended real `x` is a positive real number. -/
def IsPos (x : EReal) : Prop := ∃ r : ℝ, 0 < r ∧ x = (r : EReal)

/-- Every entry of a family of extended reals is a real number. -/
def AllReal {ι : Type} (v : ι → EReal) : Prop := ∀ i, IsReal (v i)

theorem IsPos.isReal {x : EReal} (h : IsPos x) : IsReal x := let ⟨r, _, e⟩ := h; ⟨r, e⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- The maximum of `-∞` and a real is that real. -/
theorem IsReal.bot_max {x : EReal} (hx : IsReal x) : IsReal (Max.max ⊥ x) := by
  rw [max_eq_right bot_le]; exact hx

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Folding `max` from `-∞` over reals gives `-∞` (over nothing) or a real. -/
theorem fold_max_bot_or_real {ι : Type} (s : Finset ι) (f : ι → EReal) (h : ∀ i ∈ s, IsReal (f i)) :
    s.fold Max.max ⊥ f = ⊥ ∨ IsReal (s.fold Max.max ⊥ f) := by
  classical
  induction s using Finset.induction_on with
  | empty => exact Or.inl Finset.fold_empty
  | insert a s ha ih =>
    right
    rw [Finset.fold_insert ha]
    have hx := h a (Finset.mem_insert_self a s)
    rcases ih (fun i hi => h i (Finset.mem_insert_of_mem hi)) with hb | hy
    · rw [hb, max_eq_left bot_le]; exact hx
    · exact hx.max hy

/-- The maximum of a NONEMPTY finite family of reals, taken from `-∞`, is real. -/
theorem fold_max_real {ι : Type} (s : Finset ι) (hs : s.Nonempty) (f : ι → EReal) (h : ∀ i ∈ s, IsReal (f i)) :
    IsReal (s.fold Max.max ⊥ f) := by
  rcases fold_max_bot_or_real s f h with hb | hr
  · obtain ⟨i, hi⟩ := hs
    obtain ⟨r, hr⟩ := h i hi
    have hle : f i ≤ s.fold Max.max ⊥ f := (Finset.le_fold_max (f i)).mpr (Or.inr ⟨i, hi, le_rfl⟩)
    rw [hb, hr] at hle
    exact absurd (le_bot_iff.mp hle) (EReal.coe_ne_bot r)
  · exact hr

/-- `exp` of a difference of reals is a positive real. -/
theorem exp_sub_pos {s m : EReal} (hs : IsReal s) (hm : IsReal m) : IsPos (Ideal.exp (s - m)) := by
  obtain ⟨x, rfl⟩ := hs; obtain ⟨y, rfl⟩ := hm
  exact ⟨Real.exp (x - y), Real.exp_pos _, by rw [← EReal.coe_sub, Ideal.exp_coe]⟩

/-- A sum of positive reals over a nonempty finite index set is a positive real. -/
theorem IsPos.sum {n : Nat} (hn : 0 < n) (e : Fin n → EReal) (h : ∀ k, IsPos (e k)) : IsPos (∑ k, e k) := by
  choose a ha he using h
  refine ⟨∑ k, a k, Finset.sum_pos (fun k _ => ha k) ⟨⟨0, hn⟩, Finset.mem_univ _⟩, ?_⟩
  rw [coe_sum]; exact Finset.sum_congr rfl fun k _ => he k

/-- A positive real divided by itself is one. -/
theorem div_self_of_pos {x : EReal} (h : IsPos x) : Ideal.div x x = 1 := by
  obtain ⟨a, ha, rfl⟩ := h
  rw [Ideal.div_coe ha.ne', ← EReal.coe_mul, mul_one_div_cancel ha.ne', EReal.coe_one]

/-- A real divided by a nonzero real is real. -/
theorem IsReal.div {x y : EReal} (hx : IsReal x) {b : ℝ} (hb : b ≠ 0) (hy : y = (b : EReal)) : IsReal (Ideal.div x y) := by
  obtain ⟨a, rfl⟩ := hx
  rw [hy, Ideal.div_coe hb, ← EReal.coe_mul]; exact ⟨_, rfl⟩

/-- THE ROW SUM OF A SOFTMAX: positive reals `e k`, each divided by their total, sum to one. -/
theorem sum_div_sum {n : Nat} (hn : 0 < n) (e : Fin n → EReal) (h : ∀ k, IsPos (e k)) :
    ∑ k, Ideal.div (e k) (∑ k', e k') = 1 := by
  choose a ha he using h
  have hL : 0 < ∑ k, a k := Finset.sum_pos (fun k _ => ha k) ⟨⟨0, hn⟩, Finset.mem_univ _⟩
  have hsum : ∑ k, e k = ((∑ k, a k : ℝ) : EReal) := by
    rw [coe_sum]; exact Finset.sum_congr rfl fun k _ => he k
  rw [hsum]
  have hterm : ∀ k, Ideal.div (e k) ((∑ k, a k : ℝ) : EReal) = ((a k * (1 / ∑ k, a k) : ℝ) : EReal) := fun k => by
    rw [Ideal.div_coe hL.ne', he k, ← EReal.coe_mul]
  rw [Finset.sum_congr rfl fun k _ => hterm k, ← coe_sum, ← Finset.sum_mul, mul_one_div_cancel hL.ne', EReal.coe_one]

end Cert.Finite

end
-- ==== Proof.Consts.lean ====
/-
  The float literals the two programs spell, as the extended reals their bit patterns denote.

  The kernel's scale on the scores has an exponent field that is neither all ones nor zero, so it denotes a real number
  (which one does not matter). `0xFF800000` is `-∞`, where both row maxima start. `0x7F800000` is `+∞`, the bound of the
  precondition. `0x44000000` is `512`, whose square root the reference divides its scores by.
-/
import Idealize.ShloMosaic.PureOps.Ideal
import proofs.«142373_j43035572306294_2_alg».proof.Proof.Finite

noncomputable section

namespace Cert.Consts

open Idealize.ShloMosaic Cert.Finite

/-- The scale the kernel multiplies its scores by is a real number. -/
theorem scale_isReal : IsReal (Ideal.ofBits .f32 0x3D3504F3#32) := by
  show IsReal (Ideal.ieee 8 23 (0x3D3504F3#32 : BitVec 32))
  unfold Ideal.ieee
  dsimp only
  rw [if_neg (by decide), if_neg (by decide)]
  exact ⟨_, rfl⟩

/-- The value a row maximum starts from is `-∞`. -/
theorem ofBits_neg_inf : Ideal.ofBits .f32 0xFF800000#32 = ⊥ := by
  simp [Ideal.ofBits, Ideal.ieee]

/-- The bound the precondition compares absolute values with is `+∞`. -/
theorem ofBits_pos_inf : Ideal.ofBits .f32 0x7F800000#32 = ⊤ := by
  simp [Ideal.ofBits, Ideal.ieee]

/-- The reference's `512.0` denotes the real `512`. -/
theorem ofBits_512 : Ideal.ofBits .f32 0x44000000#32 = ((512 : ℝ) : EReal) := by
  simp [Ideal.ofBits, Ideal.ieee, -EReal.coe_mul]; norm_num

/-- The square root of `512` is a nonzero real. -/
theorem sqrt_512 : ∃ b : ℝ, b ≠ 0 ∧ Ideal.sqrt (Ideal.ofBits .f32 0x44000000#32) = (b : EReal) := by
  refine ⟨Real.sqrt 512, (Real.sqrt_pos.mpr (by norm_num)).ne', ?_⟩
  rw [ofBits_512, Ideal.sqrt_coe, if_neg (by norm_num)]

end Cert.Consts

end
-- ==== Proof.KernelBlock.lean ====
/-
  One grid point of the kernel, as arithmetic on extended reals.

  At a grid point the body holds a block `x0` of queries (512 rows of 512), the batch's whole block `x1` of keys
  (2048 rows of 512) and a block `x2` of values (512 rows of 512). It forms the scores `c · x0 x1ᵀ` (512 by 2048; `c`
  a finite constant), each row's maximum, the weights `exp (score - row maximum)`, each row's sum `l` of weights,
  the normaliser `l / l`, and stores `x2` times the normaliser broadcast along the row.

  When every entry of `x0` and of `x1` is a real number, every score is real (a finite sum of products of reals,
  times a real), every row maximum is real (the maximum of 2048 reals), every weight is a positive real, every row sum
  is a positive real, so every normaliser is exactly `1` and the stored block is `x2` itself.
-/
import proofs.«142373_j43035572306294_2_alg».proof.Proof.Gen.KernelIdeal.Skeleton
import proofs.«142373_j43035572306294_2_alg».proof.Proof.Finite
import proofs.«142373_j43035572306294_2_alg».proof.Proof.Consts
import Idealize.ShloMosaic.PureOps.Ideal.Laws
import Idealize.ShloMosaic.Lib.Pipeline.Value

noncomputable section

namespace Cert.KernelBlock

open Cert.KernelIdeal Cert.KernelIdeal.Gen Idealize.ShloMosaic Cert.Finite Cert.Consts

/-- Re-laying a family of reals (a reshape, a broadcast) leaves a family of reals. -/
theorem allReal_shapeCast {s t : Shape} (v : s.Idx → EReal) (h : s.ShapeCasts t) (hv : AllReal v) :
    AllReal (shapeCast t v h) := fun j => hv _

theorem allReal_broadcastTo {s t : Shape} (v : s.Idx → EReal) (h : s.Broadcasts t) (hv : AllReal v) :
    AllReal (broadcastTo t v h) := fun j => hv _

variable (x0 : Vec Ideal S1x512x512 .f32) (x1 : Vec Ideal S1x2048x512 .f32) (x2 : Vec Ideal S1x512x512 .f32)

/-- The scores: the query block times the transposed key block, times the scale. -/
def scores : FVec Ideal S512x2048 .f32 :=
  mulf (matmul dot_S512x512_S512x2048_S512x2048_1_0_0_1_n_n none
      (truncf .bf16 (shapeCast S512x512 x0 shapeCasts_S1x512x512_S512x512) bitsLt_bf16_f32)
      (transpose S512x2048 [1, 0] (truncf .bf16 (shapeCast S2048x512 x1 shapeCasts_S1x2048x512_S2048x512) bitsLt_bf16_f32)
        transposes_S2048x512_p1_0_S512x2048)
      (constant S512x2048 .f32 0x00000000#32))
    (broadcast S512x2048 (Scalar.ofBits .f32 0x3D3504F3#32))

/-- Each row's maximum score. -/
def rowMax : FVec Ideal S512 .f32 :=
  multiReduction .maximumf [1] S512 (scores x0 x1) 0xFF800000#32 reduces_S512x2048_S512 (.inl rfl) rfl

/-- The weights: `exp` of each score less its row's maximum. -/
def weights : FVec Ideal S512x2048 .f32 :=
  exp (subf (scores x0 x1)
    (broadcastTo S512x2048 (shapeCast S512x1 (rowMax x0 x1) shapeCasts_S512_S512x1) broadcasts_S512x1_S512x2048))

/-- Each row's sum of weights. -/
def rowSums : FVec Ideal S512 .f32 :=
  multiReduction .add [1] S512 (weights x0 x1) 0x00000000#32 reduces_S512x2048_S512 (.inl rfl) rfl

/-- The normaliser: each row's sum, as a column, divided by itself. -/
def norm : FVec Ideal S512x1 .f32 :=
  divf (shapeCast S512x1 (rowSums x0 x1) shapeCasts_S512_S512x1) (shapeCast S512x1 (rowSums x0 x1) shapeCasts_S512_S512x1)

/-- The body's stored value is the value block times the normaliser, broadcast along each row. -/
theorem pay_eq : k0_pay1 (F := Ideal) x0 x1 x2
    = shapeCast S1x512x512
        (mulf (shapeCast S512x512 x2 shapeCasts_S1x512x512_S512x512)
          (broadcastTo S512x512 (norm x0 x1) broadcasts_S512x1_S512x512))
        shapeCasts_S512x512_S1x512x512 := rfl

variable {x0 x1}

/-- Every score is real when every query and key entry is. -/
theorem scores_real (h0 : AllReal x0) (h1 : AllReal x1) : AllReal (scores x0 x1) := fun i => by
  unfold scores
  show IsReal (_ * Ideal.ofBits .f32 0x3D3504F3#32)
  refine IsReal.mul ?_ scale_isReal
  simp only [matmul]
  rw [Ideal.matmul_constant_zero_apply]
  exact IsReal.sum _ _ fun k _ => IsReal.mul (h0 _) (h1 _)

/-- Every row maximum is real: the maximum, from `-∞`, of a row's 2048 real scores. -/
theorem rowMax_real (h0 : AllReal x0) (h1 : AllReal x1) : AllReal (rowMax x0 x1) := fun j => by
  have e : rowMax x0 x1 j = (Finset.univ : Finset (Fin (S512x2048.size 1))).fold Max.max (FloatOps.ofBits .f32 0xFF800000#32)
      (scores x0 x1 ∘ reduces_S512x2048_S512.lift j) :=
    Ideal.multiReduction_maximumf_single (scores x0 x1) 0xFF800000#32 reduces_S512x2048_S512 (.inl rfl) rfl j
  rw [e]
  show IsReal (Finset.fold Max.max (Ideal.ofBits .f32 0xFF800000#32) _ _)
  rw [ofBits_neg_inf]
  exact fold_max_real _ ⟨⟨0, by decide⟩, Finset.mem_univ _⟩ _ fun k _ => scores_real h0 h1 _

/-- Every weight is a positive real. -/
theorem weights_pos (h0 : AllReal x0) (h1 : AllReal x1) (i : S512x2048.Idx) : IsPos (weights x0 x1 i) := by
  unfold weights
  show IsPos (Ideal.exp (scores x0 x1 i
    - broadcastTo S512x2048 (shapeCast S512x1 (rowMax x0 x1) shapeCasts_S512_S512x1) broadcasts_S512x1_S512x2048 i))
  exact exp_sub_pos (scores_real h0 h1 i)
    (allReal_broadcastTo _ _ (allReal_shapeCast _ _ (rowMax_real h0 h1)) i)

/-- Every row sum is a positive real. -/
theorem rowSums_pos (h0 : AllReal x0) (h1 : AllReal x1) (j : S512.Idx) : IsPos (rowSums x0 x1 j) := by
  have e : rowSums x0 x1 j = ∑ k : Fin (S512x2048.size 1), weights x0 x1 (reduces_S512x2048_S512.lift j k) :=
    Ideal.multiReduction_add_single (weights x0 x1) 0x00000000#32 reduces_S512x2048_S512 (.inl rfl) rfl j
  rw [e]
  exact IsPos.sum (by decide) _ fun k => weights_pos h0 h1 _

/-- Every normaliser is one. -/
theorem norm_one (h0 : AllReal x0) (h1 : AllReal x1) (z : S512x1.Idx) : norm x0 x1 z = 1 := by
  unfold norm
  show Ideal.div (rowSums x0 x1 _) (rowSums x0 x1 _) = 1
  exact div_self_of_pos (rowSums_pos h0 h1 _)

/-- THE BLOCK A POINT STORES is the value block it loaded, when the query and key blocks hold real numbers. -/
theorem pay_eq_values (h0 : AllReal x0) (h1 : AllReal x1) : k0_pay1 (F := Ideal) x0 x1 x2 = x2 := by
  rw [pay_eq]
  have hm : mulf (shapeCast S512x512 x2 shapeCasts_S1x512x512_S512x512)
      (broadcastTo S512x512 (norm x0 x1) broadcasts_S512x1_S512x512)
      = shapeCast S512x512 x2 shapeCasts_S1x512x512_S512x512 := funext fun i => by
    show shapeCast S512x512 x2 shapeCasts_S1x512x512_S512x512 i * norm x0 x1 _ = _
    rw [norm_one h0 h1, mul_one]
  rw [hm, shapeCast_shapeCast]

end Cert.KernelBlock

end
-- ==== Proof.KernelArray.lean ====
/-
  From the kernel's blocks to its result array.

  The grid has 8 × 4 points. Point (b, qi) loads block (b, qi) of the query array (512 rows), the whole of batch
  `b` of the key array, and block (b, qi) of the value array, and writes block (b, qi) of the result array. The value
  window and the result window move together: at every point their block indices are equal, so the index of the value
  array that a point reads at position `j` of its block is the index of the result array it writes at position `j`.

  When every query and key entry is a real number, each point writes back exactly the value block it loaded
  (`KernelBlock.pay_eq_values`), which is the block of the value ARRAY at the result block's own place. The 32
  result blocks tile the result array — row `r` of batch `b` lies in the block of point (b, r / 512) — so after the run
  the result array is the value array.
-/
import proofs.«142373_j43035572306294_2_alg».proof.Proof.Gen.KernelIdeal.Value
import proofs.«142373_j43035572306294_2_alg».proof.Proof.KernelBlock

set_option maxRecDepth 16384

noncomputable section

namespace Cert.KernelArray

open Cert.KernelIdeal Cert.KernelIdeal.Gen Idealize.ShloMosaic Idealize.ShloMosaic.TcCoe Idealize.SL.Sem Cert.Finite
open Idealize.ShloMosaic.Pipeline (Dat)

variable (m : (ℓ : Loc nD τ sig) → Buf (Elt Ideal) ℓ) (ρ : Dev nD → PrngReg)

/-- The body's accesses start at the origin of their buffers. -/
theorem origin : (![0, 0, 0] : Fin 3 → Nat) = fun _ => 0 := funext fun a => by fin_cases a <;> rfl

/-- At every grid point the value window's block index is the result window's, axis by axis. -/
theorem same_block : ∀ t : Fin cfg0.N, win0_2.index t (0 : Fin 3) = win0_3.index t (0 : Fin 3)
    ∧ win0_2.index t (1 : Fin 3) = win0_3.index t (1 : Fin 3)
    ∧ win0_2.index t (2 : Fin 3) = win0_3.index t (2 : Fin 3) :=
  (by decide +kernel : ∀ t : Fin grid0.N, _)

/-- Every (batch, row-block) pair is the result block of some grid point. -/
theorem block_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- The value array, as the function of an index the result array is compared with. -/
abbrev values (c : Dev nD) : S8x2048x512.Idx → Elt Ideal .f32 := fun i => V m c main_arg2 i

/-- WHAT POINT `t` WRITES BACK is block `t` of the value array, when the query and key arrays hold real numbers. -/
theorem flushed_eq (c : Dev nD) (hq : ∀ i, IsReal (V m c main_arg0 i)) (hk : ∀ i, IsReal (V m c main_arg1 i)) (t : Fin cfg0.N) :
    (dats m 0 c).flushed 3 t = ((cfg0.win 3).blk t).view.read (Elt Ideal) (values m c) := by
  rw [Value.flushed3]
  unfold out0_3
  rw [View.canon_unit_zero origin]
  simp only [View.ld_unit_zero (S := S1x512x512) origin, View.ld_unit_zero (S := S1x2048x512) origin]
  have h0 : AllReal (iblk m c 0 t) := fun y => hq (((cfg0.win 0).blk t).view.emb y)
  have h1 : AllReal (iblk m c 1 t) := fun y => hk (((cfg0.win 1).blk t).view.emb y)
  rw [KernelBlock.pay_eq_values (iblk m c 2 t) h0 h1]
  obtain ⟨e0, e1, e2⟩ := same_block t
  funext j
  show V m c main_arg2 (((cfg0.win 2).blk t).view.emb j) = V m c main_arg2 (((cfg0.win 3).blk t).view.emb j)
  have he : ((cfg0.win 2).blk t).view.emb j = ((cfg0.win 3).blk t).view.emb j := by
    funext a; apply Fin.ext
    match a with
    | ⟨0, _⟩ => show win0_2.index t (0 : Fin 3) * 1 + 1 * (j 0).val = win0_3.index t (0 : Fin 3) * 1 + 1 * (j 0).val; omega
    | ⟨1, _⟩ => show win0_2.index t (1 : Fin 3) * 512 + 1 * (j 1).val = win0_3.index t (1 : Fin 3) * 512 + 1 * (j 1).val; omega
    | ⟨2, _⟩ => show win0_2.index t (2 : Fin 3) * 512 + 1 * (j 2).val = win0_3.index t (2 : Fin 3) * 512 + 1 * (j 2).val; omega
  rw [he]

/-- An index of the result array is in point `t`'s block iff each coordinate is in the block's range on its axis. -/
theorem mem_block (t : Fin cfg0.N) (i : S8x2048x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v0).slice (win0_3.rect t)).set ↔ _
  rw [View.set_slice_whole, Rect.mem_set_unit]
  exact Iff.rfl

/-- THE RESULT BLOCKS TILE THE RESULT ARRAY: index (b, r, d) lies in the block of the point whose block index is (b, r / 512, 0). -/
theorem cover (i : S8x2048x512.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  obtain ⟨t, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE RESULT ARRAY after the run is the value array. -/
theorem final (c : Dev nD) (hq : ∀ i, IsReal (V m c main_arg0 i)) (hk : ∀ i, IsReal (V m c main_arg1 i)) :
    (dats m 0 c).arrAt 3 cfg0.N = values m c :=
  (dats m 0 c).arrAt_eq_of_cover 3 (values m c) (fun t _ => flushed_eq m c hq hk t) cover

/-- THE KERNEL'S RUN: every weakly fair execution terminates with the result array equal to the value array and the
    three argument arrays unchanged, when the query and key arrays hold real numbers on every core. -/
theorem run (hq : ∀ c i, IsReal (V m c main_arg0 i)) (hk : ∀ c i, IsReal (V m c main_arg1 i)) :
    θ_run defs (onTc (τ := τ) (main (F := Ideal))) ⟨m, fun _ => 0, ρ⟩ fun r => ∀ c : Dev nD,
      r.2.mem ((c : Thread nD τ).loc main_v0) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hq c) (hk c)), (h c).2⟩)
    (Value.run_blocks m ρ)

end Cert.KernelArray

end
-- ==== Proof.RefRows.lean ====
/-
  The reference, row by row, as arithmetic on extended reals.

  For query, key and value arrays `x0`, `x1`, `x2` (8 batches of 2048 rows of 512) the reference forms the scores
  `(x0 x1ᵀ) / √512` (8 × 2048 × 2048), each row's maximum from `-∞`, the weights `exp (score - row maximum)`, each row's
  sum `L` of weights, the quotients `weight / L`, each row's sum of quotients, and returns `x2` times that sum broadcast
  along the row.

  When every entry of `x0` and of `x1` is a real number: every score is real (a finite sum of products of reals divided by
  a nonzero real), every row maximum is real, every weight is a positive real, and a row's quotients sum to
  `(∑ weights) / L = 1`. So the result is `x2`.
-/
import proofs.«142373_j43035572306294_2_alg».proof.Proof.Gen.ReferenceIdeal.Read
import proofs.«142373_j43035572306294_2_alg».proof.Proof.Finite
import proofs.«142373_j43035572306294_2_alg».proof.Proof.Consts

noncomputable section

namespace Cert.RefRows

open Cert.ReferenceIdeal Cert.ReferenceIdeal.Gen Cert.ReferenceIdeal.Read Idealize.ShloMosaic Idealize.ShloMosaic.TcCoe
open Idealize.SL.Sem Cert.Finite Cert.Consts

variable (x0 x1 x2 : (⟨S8x2048x512, .f32⟩ : BufTy).Contents (Elt Ideal))
variable (h0 : ∀ i : S8x2048x512.Idx, IsReal (x0 i)) (h1 : ∀ i : S8x2048x512.Idx, IsReal (x1 i))

include h0 h1

/-- Every score is real: a sum of 512 products of reals, divided by the nonzero real `√512`. -/
theorem scores_real (i : S8x2048x2048.Idx) : IsReal (val_main_v3 (F := Ideal) x0 x1 i) := by
  obtain ⟨b, hb, hsq⟩ := sqrt_512
  rw [val_main_v3_apply, val_main_v0_apply, val_main_v2_apply, val_main_v1_apply, val_main_cst_apply]
  show IsReal (Ideal.div _ (Ideal.sqrt (Ideal.ofBits .f32 0x44000000#32)))
  exact IsReal.div (IsReal.sum _ _ fun k _ => (h0 _).mul (h1 _)) hb hsq

/-- Every row maximum is real: the maximum, from `-∞`, of a row's 2048 real scores. -/
theorem rowMax_real (j : S8x2048.Idx) : IsReal (val_main_v4 (F := Ideal) x0 x1 j) := by
  have hred : S8x2048x2048.Reduces [2] S8x2048 := by decide
  have e : val_main_v4 (F := Ideal) x0 x1 j
      = (Finset.univ : Finset (Fin (S8x2048x2048.size 2))).fold (FloatOps.maximumf (F := Ideal) (φ := .f32))
          (val_main_cst_0 (F := Ideal) (Shape.Idx.first h_S_)) (val_main_v3 (F := Ideal) x0 x1 ∘ hred.lift j) :=
    Host.reduce_eq_fold_single (FloatOps.maximumf (F := Ideal) (φ := .f32)) (val_main_v3 (F := Ideal) x0 x1)
      (val_main_cst_0 (F := Ideal)) reducesTo_S8x2048x2048_S8x2048_d2 hred h_S_ j
  rw [e]
  show IsReal (Finset.fold Max.max (Ideal.ofBits .f32 0xFF800000#32) _ _)
  rw [ofBits_neg_inf]
  exact fold_max_real _ ⟨⟨0, by decide⟩, Finset.mem_univ _⟩ _ fun k _ => scores_real x0 x1 h0 h1 _

/-- Taking the maximum with `-∞` once more leaves it real. -/
theorem rowMax_real' (j : S8x2048.Idx) : IsReal (val_main_v6 (F := Ideal) x0 x1 j) := by
  rw [val_main_v6_apply, val_main_v5_apply, val_main_cst_1_apply]
  show IsReal (Max.max (Ideal.ofBits .f32 0xFF800000#32) _)
  rw [ofBits_neg_inf]
  exact (rowMax_real x0 x1 h0 h1 j).bot_max

/-- Every weight is a positive real. -/
theorem weights_pos (i : S8x2048x2048.Idx) : IsPos (val_main_v10 (F := Ideal) x0 x1 i) := by
  rw [val_main_v10_apply, val_main_v9_apply, val_main_v8_apply, val_main_v7_apply]
  show IsPos (Ideal.exp (_ - _))
  exact exp_sub_pos (scores_real x0 x1 h0 h1 i) (rowMax_real' x0 x1 h0 h1 _)

omit h0 h1 in
/-- A row's sum of weights, without its zero initial value. -/
theorem rowSum_eq (j : S8x2048.Idx) :
    val_main_v11 (F := Ideal) x0 x1 j = ∑ k : Fin 2048, val_main_v10 (F := Ideal) x0 x1 (idx_main_v11 j k) := by
  rw [val_main_v11_apply, val_main_cst_2_apply]
  show Ideal.ofBits .f32 0x00000000#32 + _ = _
  rw [Ideal.ofBits_zero_f32, zero_add]

/-- THE ROW SUM OF THE SOFTMAX is one. -/
theorem softmax_rowSum (j : S8x2048.Idx) : val_main_v15 (F := Ideal) x0 x1 j = 1 := by
  rw [val_main_v15_apply, val_main_cst_3_apply]
  show Ideal.ofBits .f32 0x00000000#32 + _ = _
  rw [Ideal.ofBits_zero_f32, zero_add]
  have hterm : ∀ k : Fin 2048, val_main_v14 (F := Ideal) x0 x1 (idx_main_v15 j k)
      = Ideal.div (val_main_v10 (F := Ideal) x0 x1 (idx_main_v11 j k))
          (∑ k' : Fin 2048, val_main_v10 (F := Ideal) x0 x1 (idx_main_v11 j k')) := fun k => by
    rw [val_main_v14_apply, val_main_v13_apply, val_main_v12_apply]
    have hj : idx_main_v12 (idx_main_v13 (idx_main_v15 j k)) = j :=
      funext fun a => Fin.ext (by match a with | ⟨0, _⟩ => rfl | ⟨1, _⟩ => rfl)
    rw [hj, rowSum_eq]
    rfl
  rw [Finset.sum_congr rfl fun k _ => hterm k]
  exact sum_div_sum (by decide) (fun k => val_main_v10 (F := Ideal) x0 x1 (idx_main_v11 j k))
    fun k => weights_pos x0 x1 h0 h1 _

/-- THE REFERENCE'S RESULT is the value array. -/
theorem result_eq : val_main_v18 (F := Ideal) x0 x1 x2 = x2 := funext fun i => by
  rw [val_main_v18_apply, val_main_v17_apply, val_main_v16_apply, softmax_rowSum x0 x1 h0 h1]
  show x2 i * 1 = x2 i
  exact mul_one _

end Cert.RefRows

end
-- ==== Proof.Inputs.lean ====
/-
  What the precondition says of the inputs.

  The precondition is `all |q| < +∞ and all |k| < +∞ and all |v| < +∞`, an `and` of three reductions by `and` over
  every index. An extended real whose absolute value `max x (-x)` is below `+∞` is neither infinity, so it is a real
  number. Hence under the precondition every entry of the query array and of the key array is a real number (so is every
  entry of the value array, which the proof does not need).
-/
import proofs.«142373_j43035572306294_2_alg».proof.Pre_finite_inputs
import proofs.«142373_j43035572306294_2_alg».proof.Proof.Finite
import proofs.«142373_j43035572306294_2_alg».proof.Proof.Consts
import Idealize.ShloMosaic.Lib.ReduceAll
import Idealize.ShloMosaic.Lib.ValueIdx
import Idealize.ShloMosaic.PureOps.Ideal.Laws

noncomputable section

namespace Cert.Inputs

open Cert.Pre_finite_inputs Idealize.ShloMosaic Cert.Finite Cert.Consts

variable [Cert.Pre_finite_inputs.Facts]
open Cert.Pre_finite_inputs.Facts

/-- The rank-zero shape has one index. -/
instance : Subsingleton S_.Idx := ⟨fun a b => funext fun d => d.elim0⟩

/-- An extended real whose absolute value is below `+∞` is a real number. -/
theorem isReal_of_abs_lt {x : EReal} (h : Ideal.cmp .olt (Max.max x (-x)) ⊤ = 1#1) : IsReal x := by
  induction x using EReal.rec with
  | bot => simp [Ideal.cmp] at h
  | top => simp [Ideal.cmp] at h
  | coe r => exact ⟨r, rfl⟩

/-- If "every absolute value of `a` is below `+∞`" came out true, every entry of `a` is real. -/
theorem real_of_all (a : FVec Ideal S8x2048x512 .f32)
    (e : Host.reduce IntOp.andi
        (cmpf .olt (Host.absf a) (broadcastInDim S8x2048x512 ![] bcast_S_S8x2048x512 (constant (F := Ideal) S_ .f32 0x7F800000#32)))
        (constantI S_ 1 1#1) reducesTo_S8x2048x512_S_d0_1_2 h_S_ ValueIdx.ix0 = 1#1)
    (i : S8x2048x512.Idx) : IsReal (a i) := by
  have hi := Host.reduce_andi_all _ _ _ _ _ e i
  apply isReal_of_abs_lt
  rw [← ofBits_pos_inf]
  exact hi

/-- UNDER THE PRECONDITION every query entry and every key entry is a real number. -/
theorem real_of_pre (a0 a1 a2 : FVec Ideal S8x2048x512 .f32) (h : fn (F := Ideal) a0 a1 a2 = fun _ => 1#1) :
    (∀ i, IsReal (a0 i)) ∧ (∀ i, IsReal (a1 i)) := by
  have h' := congrFun h ValueIdx.ix0
  unfold fn at h'
  dsimp only at h'
  change IntOp.andi (IntOp.andi _ _) _ = 1#1 at h'
  obtain ⟨h01, -⟩ := IntOp.andi_eq_one.1 h'
  obtain ⟨q, k⟩ := IntOp.andi_eq_one.1 h01
  exact ⟨real_of_all a0 q, real_of_all a1 k⟩

end Cert.Inputs

end
-- ==== Proof.lean ====
/-
  Both programs return the value array.

  The kernel computes, block by block, `out = v · (l / l)` where `l` is a row's sum of the weights
  `exp (score - row maximum)` and the scores are `c · q kᵀ` for a finite constant `c`. The reference computes
  `out = v · ∑ⱼ (weightⱼ / L)` where `L` is a row's sum of the weights of the scores `q kᵀ / √512`. The two scales differ
  (`c` is a rounded `1 / √512`), so the scores differ — but the results do not depend on the scores: whenever the scores
  are finite, every weight is a positive real, so `l` and `L` are positive reals, `l / l = 1` and
  `∑ⱼ weightⱼ / L = L / L = 1`, and each side is `v · 1 = v` (on every extended real `v`, infinite or not).

  The scores are finite because the precondition makes every entry of `q` and `k` a real number (Proof/Inputs.lean):
  a score is then a finite sum of products of reals, scaled by a real (Proof/KernelBlock.lean) or divided by a nonzero
  real (Proof/RefRows.lean). Proof/Finite.lean holds the arithmetic of real entries and the two normaliser identities,
  Proof/Consts.lean the four float literals, Proof/KernelArray.lean the passage from the kernel's 32 blocks to its
  result array.

  The three frames: the two kernels' are their generated frame theorems; the reference has no kernel and its frame is
  its generated run with the result dropped. The ideal pass rewrote nothing, so there is nothing to preserve.
-/
import proofs.«142373_j43035572306294_2_alg».proof.Defs
import proofs.«142373_j43035572306294_2_alg».proof.Proof.Gen.Kernel
import proofs.«142373_j43035572306294_2_alg».proof.Proof.Gen.Kernel.Skeleton
import proofs.«142373_j43035572306294_2_alg».proof.Proof.Gen.Kernel.Launch
import proofs.«142373_j43035572306294_2_alg».proof.Proof.Gen.Kernel.Points
import proofs.«142373_j43035572306294_2_alg».proof.Proof.Gen.Kernel.Frame
import proofs.«142373_j43035572306294_2_alg».proof.Proof.Gen.KernelIdeal
import proofs.«142373_j43035572306294_2_alg».proof.Proof.Gen.KernelIdeal.Skeleton
import proofs.«142373_j43035572306294_2_alg».proof.Proof.Gen.KernelIdeal.Launch
import proofs.«142373_j43035572306294_2_alg».proof.Proof.Gen.KernelIdeal.Points
import proofs.«142373_j43035572306294_2_alg».proof.Proof.Gen.KernelIdeal.Frame
import proofs.«142373_j43035572306294_2_alg».proof.Proof.Gen.ReferenceIdeal
import proofs.«142373_j43035572306294_2_alg».proof.Proof.Gen.Pre_finite_inputs
import proofs.«142373_j43035572306294_2_alg».proof.Proof.Gen.KernelIdeal.Value
import proofs.«142373_j43035572306294_2_alg».proof.Proof.Gen.ReferenceIdeal.Run
import proofs.«142373_j43035572306294_2_alg».proof.Proof.Gen.ReferenceIdeal.Read
import proofs.«142373_j43035572306294_2_alg».proof.Proof.KernelArray
import proofs.«142373_j43035572306294_2_alg».proof.Proof.RefRows
import proofs.«142373_j43035572306294_2_alg».proof.Proof.Inputs
import Idealize.ShloMosaic.Adequacy
import Idealize.ShloMosaic.Init

noncomputable section

namespace Cert.Proof

open Idealize.ShloMosaic Idealize.ShloMosaic.TcCoe Idealize.SL.Sem Cert.Finite

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition, both runs end with the result array equal
    to the kernel's value array, entry by entry, and the arguments unchanged. -/
theorem algebraic : Cert.algebraic_KernelIdeal_ReferenceIdeal := by
  intro m ρ m' ρ' hpre hagree
  have hreal := fun c => Cert.Inputs.real_of_pre _ _ _ (hpre c)
  refine ⟨fun c => Cert.KernelArray.values m c,
    Cert.KernelArray.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  exact Cert.RefRows.result_eq _ _ _ (hreal c).1 (hreal c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
